-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S64 : Shape := ⟨1, ![64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x16384 .f32) (main_arg1 : FVec F S16384x64 .f32) (main_arg2 : FVec F S64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x16384 : Shape := ⟨2, ![16384, 16384]⟩
abbrev S16384x64 : Shape := ⟨2, ![16384, 64]⟩
abbrev S64 : Shape := ⟨1, ![64]⟩
abbrev S1x64 : Shape := ⟨2, ![1, 64]⟩
abbrev S256x16384 : Shape := ⟨2, ![256, 16384]⟩
abbrev S256x64 : Shape := ⟨2, ![256, 64]⟩

abbrev nBuf : Space → Nat
  | .hbm => 6
  | .vmem => 6
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64, .f32⟩
  | .hbm, ⟨3, _⟩ => ⟨S1x64, .f32⟩
  | .hbm, ⟨4, _⟩ => ⟨S16384x64, .bf16⟩
  | .hbm, ⟨5, _⟩ => ⟨S16384x64, .f32⟩
  | .local _ .vmem, ⟨0, _⟩ => ⟨S256x16384, .f32⟩
  | .local _ .vmem, ⟨1, _⟩ => ⟨S256x16384, .f32⟩
  | .local _ .vmem, ⟨2, _⟩ => ⟨S16384x64, .bf16⟩
  | .local _ .vmem, ⟨3, _⟩ => ⟨S1x64, .f32⟩
  | .local _ .vmem, ⟨4, _⟩ => ⟨S256x64, .f32⟩
  | .local _ .vmem, ⟨5, _⟩ => ⟨S256x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  bitsLt_bf16_f32 : FTy.bits .bf16 < FTy.bits .f32
  inb_S256x16384_S256x16384_0_0 : ∀ a, (![0, 0] : Fin 2 → Nat) a + S256x16384.size a ≤ S256x16384.size a
  h_S256x16384 : 0 < S256x16384.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  dot_S256x16384_S16384x64_S256x64_1_0_0_1_n_n_wf : DotDims.WF S256x16384 S16384x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .bf16 = 32 ∨ (Rect.block (s := S16384x64) S16384x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S16384x64.size a
  hwx0_3 : ∀ i : grid0.Coords, EltTy.bits .f32 = 32 ∨ (Rect.block (s := S16384x64) S256x64.size (cc0_transform_3 i) (hinb0_3 i)).WholeWords (EltTy.packing .f32)

variable [Facts₀]

def dot_S256x16384_S16384x64_S256x64_1_0_0_1_n_n : DotDims S256x16384 S16384x64 S256x64 where
  lhsContracting := [1]
  rhsContracting := [0]
  lhsNonContracting := [0]
  rhsNonContracting := [1]
  lhsBatch := []
  rhsBatch := []
  wf := dot_S256x16384_S16384x64_S256x64_1_0_0_1_n_n_wf

abbrev win0_0 : Pipeline.Window sig grid0 :=
  Pipeline.Window.ofSpec (Memref.whole main_arg0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x16384 : Shape := ⟨2, ![16384, 16384]⟩
abbrev S16384x64 : Shape := ⟨2, ![16384, 64]⟩
abbrev S64 : Shape := ⟨1, ![64]⟩
abbrev S2048x16384 : Shape := ⟨2, ![2048, 16384]⟩
abbrev S2048x64 : Shape := ⟨2, ![2048, 64]⟩
abbrev S1x64 : Shape := ⟨2, ![1, 64]⟩

abbrev nBuf : Space → Nat
  | .hbm => 23
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64, .f32⟩
  | .hbm, ⟨3, _⟩ => ⟨S2048x16384, .f32⟩
  | .hbm, ⟨4, _⟩ => ⟨S2048x64, .f32⟩
  | .hbm, ⟨5, _⟩ => ⟨S2048x16384, .f32⟩
  | .hbm, ⟨6, _⟩ => ⟨S2048x64, .f32⟩
  | .hbm, ⟨7, _⟩ => ⟨S2048x16384, .f32⟩
  | .hbm, ⟨8, _⟩ => ⟨S2048x64, .f32⟩
  | .hbm, ⟨9, _⟩ => ⟨S2048x16384, .f32⟩
  | .hbm, ⟨10, _⟩ => ⟨S2048x64, .f32⟩
  | .hbm, ⟨11, _⟩ => ⟨S2048x16384, .f32⟩
  | .hbm, ⟨12, _⟩ => ⟨S2048x64, .f32⟩
  | .hbm, ⟨13, _⟩ => ⟨S2048x16384, .f32⟩
  | .hbm, ⟨14, _⟩ => ⟨S2048x64, .f32⟩
  | .hbm, ⟨15, _⟩ => ⟨S2048x16384, .f32⟩
  | .hbm, ⟨16, _⟩ => ⟨S2048x64, .f32⟩
  | .hbm, ⟨17, _⟩ => ⟨S2048x16384, .f32⟩
  | .hbm, ⟨18, _⟩ => ⟨S2048x64, .f32⟩
  | .hbm, ⟨19, _⟩ => ⟨S16384x64, .f32⟩
  | .hbm, ⟨20, _⟩ => ⟨S1x64, .f32⟩
  | .hbm, ⟨21, _⟩ => ⟨S16384x64, .f32⟩
  | .hbm, ⟨22, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]

class Facts₀ : Prop where
  slices_S16384x16384_S2048x16384_0_0 : S16384x16384.Slices ![0, 0] S2048x16384
  slices_S16384x16384_S2048x16384_2048_0 : S16384x16384.Slices ![2048, 0] S2048x16384
  slices_S16384x16384_S2048x16384_4096_0 : S16384x16384.Slices ![4096, 0] S2048x16384
  slices_S16384x16384_S2048x16384_6144_0 : S16384x16384.Slices ![6144, 0] S2048x16384
  slices_S16384x16384_S2048x16384_8192_0 : S16384x16384.Slices ![8192, 0] S2048x16384
  slices_S16384x16384_S2048x16384_10240_0 : S16384x16384.Slices ![10240, 0] S2048x16384
  slices_S16384x16384_S2048x16384_12288_0 : S16384x16384.Slices ![12288, 0] S2048x16384
  slices_S16384x16384_S2048x16384_14336_0 : S16384x16384.Slices ![14336, 0] S2048x16384
  concatenates_S2048x64_S2048x64_S2048x64_S2048x64_S2048x64_S2048x64_S2048x64_S2048x64_S16384x64_d0 : Shape.Concatenates [S2048x64, S2048x64, S2048x64, S2048x64, S2048x64, S2048x64, S2048x64, S2048x64] S16384x64 0
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S2048x16384_S16384x64_S2048x64_1_0_0_1_n_n_wf : DotDims.WF S2048x16384 S16384x64 S2048x64 [1] [0] [0] [1] [] []

variable [Facts₀]

def dot_S2048x16384_S16384x64_S2048x64_1_0_0_1_n_n : DotDims S2048x16384 S16384x64 S2048x64 where
  lhsContracting := [1]
  rhsContracting := [0]
  lhsNonContracting := [0]
  rhsNonContracting := [1]
  lhsBatch := []
  rhsBatch := []
  wf := dot_S2048x16384_S16384x64_S2048x64_1_0_0_1_n_n_wf

class Facts : Prop extends Facts₀ where

variable [Facts]
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.BodyEntry.lean ====
/-
  The kernel body's result at one entry of a block.

  At one grid point the body holds a block X of 256 rows of the left matrix (all 16384 columns), the whole right
  matrix Y (16384 rows, 64 columns) and the row vector z (one row of 64 entries).  It multiplies X by Y onto the zero
  array and adds z to every row.  Over the extended reals a change of number format is the identity, so entry (p, q) of
  what it stores is

      (sum over k of X (p, k) * Y (k, q)) + z (0, q).
-/
import proofs.«102418_g49873160241781_cont_8to1c4_356_26_alg».proof.Proof.Gen.KernelIdeal.Skeleton
import proofs.«102418_g49873160241781_cont_8to1c4_356_26_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.BodyEntry

open Cert.KernelIdeal Cert.KernelIdeal.Gen Idealize.ShloMosaic Idealize.ShloMosaic.ValueIdx

variable [Facts₀]

/-- The body's contraction record is the ordinary product's: second axis of the left against first axis of the right. -/
theorem dims_eq : dot_S256x16384_S16384x64_S256x64_1_0_0_1_n_n
    = Cert.PlainMatmul.dims Facts₀.dot_S256x16384_S16384x64_S256x64_1_0_0_1_n_n_wf := rfl

/-- The one row z repeated down the 256 rows of the block, read at (p, q): z (0, q). -/
theorem bias_rows_apply (z : FVec Ideal S1x64 .f32) (p : Fin 256) (q : Fin 64) :
    broadcastTo S256x64 z Facts₀.broadcasts_S1x64_S256x64 (ix2 p q) = z (ix2 0 q) :=
  broadcastTo_apply z _ (ix2 p q) (ix2 0 q) (fun a => by
    match a with
    | ⟨0, _⟩ => rfl
    | ⟨1, _⟩ => rfl)

/-- Entry (p, q) of the body's stored block: the product's entry plus z (0, q). -/
theorem pay_apply (X : Vec Ideal S256x16384 .f32) (Y : Vec Ideal S16384x64 .bf16) (z : Vec Ideal S1x64 .f32)
    (p : Fin 256) (q : Fin 64) :
    k0_pay1 (F := Ideal) X Y z (ix2 p q) = (∑ k : Fin 16384, X (ix2 p k) * Y (ix2 k q)) + z (ix2 0 q) := by
  unfold k0_pay1
  rw [addf_apply, shapeCast_self, shapeCast_self, bias_rows_apply, dims_eq]
  refine congrArg (· + z (ix2 0 q)) ?_
  exact Cert.PlainMatmul.zero_acc_apply _ none _ Y p q

end Cert.KernelIdeal.BodyEntry

end
-- ==== Proof.Spec.lean ====
/-
  The function both programs compute, over the extended reals.

  For an array A of 16384 rows and 16384 columns, an array W of 16384 rows and 64 columns and a vector b of 64
  entries, the entry (r, q) of the result is

      (sum over k of A (r, k) * W (k, q)) + b q,

  the matrix product A W with b added to every row.  It is stated index by index over the literal extents, with no
  program in sight: each program is then shown to end at this function of its arguments.
-/
import Idealize.ShloMosaic.Lib.ValueIdx
import Idealize.ShloMosaic.PureOps.Ideal

noncomputable section

open scoped BigOperators

namespace Cert.Spec

open Idealize.ShloMosaic Idealize.ShloMosaic.ValueIdx

/-- Entry (r, q) of A W + b: the product's entry, the sum over the 16384 contraction positions, plus b q. -/
def affine (A : FVec Ideal ⟨2, ![16384, 16384]⟩ .f32) (W : FVec Ideal ⟨2, ![16384, 64]⟩ .f32)
    (b : FVec Ideal ⟨1, ![64]⟩ .f32) : FVec Ideal ⟨2, ![16384, 64]⟩ .f32 :=
  fun i => (∑ k : Fin 16384, A (ix2 (i 0) k) * W (ix2 k (i 1))) + b (ix1 (i 1))

/-- The same entry with its two coordinates named. -/
theorem affine_apply (A : FVec Ideal ⟨2, ![16384, 16384]⟩ .f32) (W : FVec Ideal ⟨2, ![16384, 64]⟩ .f32)
    (b : FVec Ideal ⟨1, ![64]⟩ .f32) (r : Fin 16384) (q : Fin 64) :
    affine A W b (ix2 r q) = (∑ k : Fin 16384, A (ix2 r k) * W (ix2 k q)) + b (ix1 q) := rfl

end Cert.Spec

end
-- ==== Proof.KernelValue.lean ====
/-
  The kernel's result array is A W + b.

  The grid has 64 points.  Point t is handed rows 256 t … 256 t + 255 of A (every column), the whole of W in the
  narrower number format, and b as one row; it writes rows 256 t … 256 t + 255 of the result.  Over the extended
  reals the narrowing is the identity and b as one row has b q at (0, q), so what point t writes back is block t of
  A W + b.  The 64 blocks of 256 rows tile the 16384 rows, so after the run the whole array is A W + b.
-/
import proofs.«102418_g49873160241781_cont_8to1c4_356_26_alg».proof.Proof.Gen.KernelIdeal.Value
import proofs.«102418_g49873160241781_cont_8to1c4_356_26_alg».proof.Proof.BodyEntry
import proofs.«102418_g49873160241781_cont_8to1c4_356_26_alg».proof.Proof.Spec
import Idealize.ShloMosaic.Lib.Pipeline.Value
import Idealize.ShloMosaic.Lib.ValueIdx
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## The two arrays the host prepares before the region -/

/-- The right matrix as the region finds it: W in the narrower format. -/
theorem staged_W (c : Dev nD) :
    (V m c main_call0_v1 : S16384x64.Idx → EReal)
      = (truncf (F := Ideal) (s := S16384x64) (φ := .f32) .bf16 (m ((c : Thread nD τ).loc main_arg1)) Facts₀.bitsLt_bf16_f32 : FVec Ideal S16384x64 .bf16) := by
  dsimp only [Gen.V, Gen.hostOps0]; after_results; rfl

/-- The vector b as the region finds it: laid out as one row. -/
theorem staged_b (c : Dev nD) :
    (V m c main_call0_v0 : S1x64.Idx → EReal)
      = (shapeCast (s := S64) (α := EReal) S1x64 (m ((c : Thread nD τ).loc main_arg2)) Facts₀.shapeCasts_S64_S1x64 : S1x64.Idx → EReal) := by
  dsimp only [Gen.V, Gen.hostOps0]; after_results; rfl

/-! ## Where each window's block sits -/

/-- The printed index maps over the 64 points: the blocks of A and of the result are at row block t, column block 0;
    the blocks of W and of b do not move. -/
theorem block_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of A is row 256 t + p of A. -/
theorem rows_of_A (c : Dev nD) (t : Fin cfg0.N) (p : Fin 256) (k : Fin 16384) (R : Fin 16384) (hR : R.val = 256 * t.val + p.val) :
    iblk m c 0 t (ix2 p k) = (m ((c : Thread nD τ).loc main_arg0)) (ix2 R k) := by
  obtain ⟨e00, e01, -, -, -, -, -, -⟩ := block_at t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = R.val; omega
  | ⟨1, _⟩ => show win0_0.index t (1 : Fin 2) * 16384 + 1 * k.val = k.val; omega

/-- Every point's block of the right matrix is the whole of W. -/
theorem all_of_W (c : Dev nD) (t : Fin cfg0.N) (k : Fin 16384) (q : Fin 64) :
    iblk m c 1 t (ix2 k q) = (m ((c : Thread nD τ).loc main_arg1)) (ix2 k q) := by
  obtain ⟨-, -, e10, e11, -, -, -, -⟩ := block_at t
  show V m c main_call0_v1 (((cfg0.win 1).blk t).view.emb (ix2 k q)) = _
  refine (congrFun (staged_W m c) _).trans ?_
  rw [truncf_apply]
  refine congrArg _ (funext fun a => Fin.ext ?_)
  match a with
  | ⟨0, _⟩ => show win0_1.index t (0 : Fin 2) * 16384 + 1 * k.val = k.val; omega
  | ⟨1, _⟩ => show win0_1.index t (1 : Fin 2) * 64 + 1 * q.val = q.val; omega

/-- Every point's block of the one-row array is b: its entry (0, q) is b q. -/
theorem all_of_b (c : Dev nD) (t : Fin cfg0.N) (q : Fin 64) :
    iblk m c 2 t (ix2 0 q) = (m ((c : Thread nD τ).loc main_arg2)) (ix1 q) := by
  obtain ⟨-, -, -, -, e20, e21, -, -⟩ := block_at t
  show V m c main_call0_v0 (((cfg0.win 2).blk t).view.emb (ix2 0 q)) = _
  refine (congrFun (staged_b m c) _).trans ?_
  refine (shapeCast_addUnit_apply ![64] _ _ _).trans ?_
  refine congrArg _ (funext fun a => Fin.ext ?_)
  match a with
  | ⟨0, _⟩ => show win0_2.index t (1 : Fin 2) * 64 + 1 * q.val = q.val; omega

/-! ## What a point writes back, and the whole array -/

/-- If row p of the block X is row R of A, the block Y is W and the one row z is b, then entry (p, q) of what the body
    stores is entry (R, q) of A W + b. -/
theorem entry_eq (X : Vec Ideal S256x16384 .f32) (Y : Vec Ideal S16384x64 .bf16) (z : Vec Ideal S1x64 .f32)
    (A : FVec Ideal S16384x16384 .f32) (W : FVec Ideal S16384x64 .f32) (b : FVec Ideal S64 .f32)
    (p : Fin 256) (q : Fin 64) (R : Fin 16384)
    (hX : ∀ k : Fin 16384, X (ix2 p k) = A (ix2 R k)) (hY : ∀ k : Fin 16384, Y (ix2 k q) = W (ix2 k q))
    (hz : z (ix2 0 q) = b (ix1 q)) :
    k0_pay1 (F := Ideal) X Y z (ix2 p q) = Cert.Spec.affine A W b (ix2 R q) := by
  have hsum : (∑ k : Fin 16384, X (ix2 p k) * Y (ix2 k q)) = ∑ k : Fin 16384, A (ix2 R k) * W (ix2 k q) :=
    Finset.sum_congr rfl fun k _ => by rw [hX k, hY k]
  rw [BodyEntry.pay_apply, Cert.Spec.affine_apply, hz, hsum]

/-- Point t writes back block t of A W + b. -/
theorem flushed_eq (c : Dev nD) (t : Fin cfg0.N) :
    (dats m 0 c).flushed 3 t = ((cfg0.win 3).blk t).view.read (Elt Ideal)
      (Cert.Spec.affine (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S256x16384) origin, View.ld_unit_zero (S := S16384x64) origin,
    View.ld_unit_zero (S := S1x64) origin]
  obtain ⟨-, -, -, -, -, -, e30, e31⟩ := block_at t
  funext j
  obtain ⟨p, q, rfl⟩ : ∃ (p : Fin 256) (q : Fin 64), j = ix2 p q := ⟨j 0, j 1, eq_ix2 j⟩
  have ht : t.val < 64 := lt_of_lt_of_eq t.isLt N_0
  let R : Fin 16384 := ⟨256 * t.val + p.val, by have := p.isLt; omega⟩
  have hemb : ((cfg0.win 3).blk t).view.emb (ix2 p q) = ix2 R q := funext fun a => Fin.ext (by
    match a with
    | ⟨0, _⟩ => show win0_3.index t (0 : Fin 2) * 256 + 1 * p.val = 256 * t.val + p.val; omega
    | ⟨1, _⟩ => show win0_3.index t (1 : Fin 2) * 64 + 1 * q.val = q.val; omega)
  show k0_pay1 (F := Ideal) (iblk m c 0 t) (iblk m c 1 t) (iblk m c 2 t) (ix2 p q)
    = Cert.Spec.affine _ _ _ (((cfg0.win 3).blk t).view.emb (ix2 p q))
  rw [hemb]
  exact entry_eq (iblk m c 0 t) (iblk m c 1 t) (iblk m c 2 t) (m ((c : Thread nD τ).loc main_arg0)) (m ((c : Thread nD τ).loc main_arg1)) (m ((c : Thread nD τ).loc main_arg2))
    p q R (fun k => rows_of_A m c t p k R rfl) (fun k => all_of_W m c t k q) (all_of_b m c t q)

/-- An index of the result is in point t's block iff each coordinate is in the block's range on its axis. -/
theorem mem_blk (t : Fin cfg0.N) (i : S16384x64.Idx) :
    i ∈ ((cfg0.win 3).blk t).view.set ↔ ∀ a : Fin 2, win0_3.index t a * S256x64.size a ≤ (i a).val ∧ (i a).val < win0_3.index t a * S256x64.size a + S256x64.size a := by
  show i ∈ ((View.whole main_v0).slice (win0_3.rect t)).set ↔ _
  rw [View.set_slice_whole, Rect.mem_set_unit]
  exact Iff.rfl

/-- Every entry of the result lies in some point's block: row r in the block of point r / 256. -/
theorem covered (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  let t : Fin cfg0.N := ⟨(i 0).val / 256, by rw [show cfg0.N = 64 from N_0]; omega⟩
  obtain ⟨-, -, -, -, -, -, e30, e31⟩ := block_at t
  have htv : t.val = (i 0).val / 256 := rfl
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 64 ≤ (i 1).val ∧ (i 1).val < win0_3.index t (1 : Fin 2) * 64 + 64; omega

/-- After the run the result array is A W + b of the argument arrays. -/
theorem final (c : Dev nD) :
    (dats m 0 c).arrAt 3 cfg0.N = Cert.Spec.affine (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program terminates with the result array at A W + b of the
    arguments, and the arguments unchanged. -/
theorem run : θ_run defs (onTc (τ := τ) (main (F := Ideal))) ⟨m, fun _ => 0, ρ⟩ fun r => ∀ c : Dev nD,
      r.2.mem ((c : Thread nD τ).loc main_v0) = Cert.Spec.affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefEntry.lean ====
/-
  The reference's result is A W + b, entry by entry.

  The reference cuts the 16384 rows of A into eight runs of 2048 rows, multiplies each run by W, lays the eight
  products one under the other, and adds b to every row.  Row r of the joined array lies in run r / 2048 at
  position r % 2048, and that run's row is row 2048 (r / 2048) + r % 2048 = r of A: so the joined array's entry
  (r, q) is the sum over k of A (r, k) * W (k, q), whatever the cut.
-/
import proofs.«102418_g49873160241781_cont_8to1c4_356_26_alg».proof.Proof.Gen.ReferenceIdeal.Read
import proofs.«102418_g49873160241781_cont_8to1c4_356_26_alg».proof.Proof.Spec
import Idealize.ShloMosaic.Lib.Pipeline.Value
import Idealize.ShloMosaic.Lib.ValueIdx

noncomputable section

open scoped BigOperators

namespace Cert.ReferenceIdeal.RefEntry

open Cert.ReferenceIdeal Cert.ReferenceIdeal.Gen Cert.ReferenceIdeal.Read Idealize.ShloMosaic Idealize.ShloMosaic.ValueIdx

/-- Run n of the eight: the product of rows 2048 n … 2048 n + 2047 of A with W. -/
def chunk (A : FVec Ideal S16384x16384 .f32) (W : FVec Ideal S16384x64 .f32) (n : Fin 8) : S2048x64.Idx → EReal :=
  match n with
  | ⟨0, _⟩ => val_main_v1 (F := Ideal) A W
  | ⟨1, _⟩ => val_main_v3 (F := Ideal) A W
  | ⟨2, _⟩ => val_main_v5 (F := Ideal) A W
  | ⟨3, _⟩ => val_main_v7 (F := Ideal) A W
  | ⟨4, _⟩ => val_main_v9 (F := Ideal) A W
  | ⟨5, _⟩ => val_main_v11 (F := Ideal) A W
  | ⟨6, _⟩ => val_main_v13 (F := Ideal) A W
  | ⟨7, _⟩ => val_main_v15 (F := Ideal) A W
  | ⟨_ + 8, h⟩ => absurd h (Nat.not_lt.2 (Nat.le_add_left _ _))

/-- Entry (s, q) of run n is the product's entry at row 2048 n + s of A. -/
theorem chunk_apply (A : FVec Ideal S16384x16384 .f32) (W : FVec Ideal S16384x64 .f32) (n : Fin 8) (s : Fin 2048) (q : Fin 64) :
    chunk A W n (ix2 s q)
      = ∑ k : Fin 16384, A (ix2 (⟨2048 * n.val + s.val, by have := n.isLt; have := s.isLt; omega⟩ : Fin 16384) k) * W (ix2 k q) :=
  match n with
  | ⟨0, _⟩ => by
    show val_main_v1 (F := Ideal) A W (ix2 s q) = _
    rw [val_main_v1_apply]
    refine Finset.sum_congr rfl fun k _ => ?_
    rw [val_main_v0_apply]
    refine congrArg₂ (· * ·) (congrArg A (funext fun a => Fin.ext ?_)) (congrArg W (funext fun a => Fin.ext ?_))
    · match a with
      | ⟨0, _⟩ => first | rfl | exact (Nat.zero_add _).symm
      | ⟨1, _⟩ => rfl
    · match a with
      | ⟨0, _⟩ => rfl
      | ⟨1, _⟩ => rfl
  | ⟨1, _⟩ => by
    show val_main_v3 (F := Ideal) A W (ix2 s q) = _
    rw [val_main_v3_apply]
    refine Finset.sum_congr rfl fun k _ => ?_
    rw [val_main_v2_apply]
    refine congrArg₂ (· * ·) (congrArg A (funext fun a => Fin.ext ?_)) (congrArg W (funext fun a => Fin.ext ?_))
    · match a with
      | ⟨0, _⟩ => first | rfl | exact (Nat.zero_add _).symm
      | ⟨1, _⟩ => rfl
    · match a with
      | ⟨0, _⟩ => rfl
      | ⟨1, _⟩ => rfl
  | ⟨2, _⟩ => by
    show val_main_v5 (F := Ideal) A W (ix2 s q) = _
    rw [val_main_v5_apply]
    refine Finset.sum_congr rfl fun k _ => ?_
    rw [val_main_v4_apply]
    refine congrArg₂ (· * ·) (congrArg A (funext fun a => Fin.ext ?_)) (congrArg W (funext fun a => Fin.ext ?_))
    · match a with
      | ⟨0, _⟩ => first | rfl | exact (Nat.zero_add _).symm
      | ⟨1, _⟩ => rfl
    · match a with
      | ⟨0, _⟩ => rfl
      | ⟨1, _⟩ => rfl
  | ⟨3, _⟩ => by
    show val_main_v7 (F := Ideal) A W (ix2 s q) = _
    rw [val_main_v7_apply]
    refine Finset.sum_congr rfl fun k _ => ?_
    rw [val_main_v6_apply]
    refine congrArg₂ (· * ·) (congrArg A (funext fun a => Fin.ext ?_)) (congrArg W (funext fun a => Fin.ext ?_))
    · match a with
      | ⟨0, _⟩ => first | rfl | exact (Nat.zero_add _).symm
      | ⟨1, _⟩ => rfl
    · match a with
      | ⟨0, _⟩ => rfl
      | ⟨1, _⟩ => rfl
  | ⟨4, _⟩ => by
    show val_main_v9 (F := Ideal) A W (ix2 s q) = _
    rw [val_main_v9_apply]
    refine Finset.sum_congr rfl fun k _ => ?_
    rw [val_main_v8_apply]
    refine congrArg₂ (· * ·) (congrArg A (funext fun a => Fin.ext ?_)) (congrArg W (funext fun a => Fin.ext ?_))
    · match a with
      | ⟨0, _⟩ => first | rfl | exact (Nat.zero_add _).symm
      | ⟨1, _⟩ => rfl
    · match a with
      | ⟨0, _⟩ => rfl
      | ⟨1, _⟩ => rfl
  | ⟨5, _⟩ => by
    show val_main_v11 (F := Ideal) A W (ix2 s q) = _
    rw [val_main_v11_apply]
    refine Finset.sum_congr rfl fun k _ => ?_
    rw [val_main_v10_apply]
    refine congrArg₂ (· * ·) (congrArg A (funext fun a => Fin.ext ?_)) (congrArg W (funext fun a => Fin.ext ?_))
    · match a with
      | ⟨0, _⟩ => first | rfl | exact (Nat.zero_add _).symm
      | ⟨1, _⟩ => rfl
    · match a with
      | ⟨0, _⟩ => rfl
      | ⟨1, _⟩ => rfl
  | ⟨6, _⟩ => by
    show val_main_v13 (F := Ideal) A W (ix2 s q) = _
    rw [val_main_v13_apply]
    refine Finset.sum_congr rfl fun k _ => ?_
    rw [val_main_v12_apply]
    refine congrArg₂ (· * ·) (congrArg A (funext fun a => Fin.ext ?_)) (congrArg W (funext fun a => Fin.ext ?_))
    · match a with
      | ⟨0, _⟩ => first | rfl | exact (Nat.zero_add _).symm
      | ⟨1, _⟩ => rfl
    · match a with
      | ⟨0, _⟩ => rfl
      | ⟨1, _⟩ => rfl
  | ⟨7, _⟩ => by
    show val_main_v15 (F := Ideal) A W (ix2 s q) = _
    rw [val_main_v15_apply]
    refine Finset.sum_congr rfl fun k _ => ?_
    rw [val_main_v14_apply]
    refine congrArg₂ (· * ·) (congrArg A (funext fun a => Fin.ext ?_)) (congrArg W (funext fun a => Fin.ext ?_))
    · match a with
      | ⟨0, _⟩ => first | rfl | exact (Nat.zero_add _).symm
      | ⟨1, _⟩ => rfl
    · match a with
      | ⟨0, _⟩ => rfl
      | ⟨1, _⟩ => rfl
  | ⟨_ + 8, h⟩ => absurd h (Nat.not_lt.2 (Nat.le_add_left _ _))

/-- The eight runs laid one under the other, read at (r, q): the product's entry at row r. -/
theorem joined_apply (A : FVec Ideal S16384x16384 .f32) (W : FVec Ideal S16384x64 .f32) (r : Fin 16384) (q : Fin 64) :
    val_main_v16 (F := Ideal) A W (ix2 r q) = ∑ k : Fin 16384, A (ix2 r k) * W (ix2 k q) := by
  have hr : r.val < 16384 := r.isLt
  unfold val_main_v16
  refine (concatenate_ofFn_apply (t := S16384x64) (s₁ := S2048x64) 0 (chunk A W) _ rfl 2048 rfl (ix2 r q)
    ⟨r.val / 2048, by omega⟩ rfl (ix2 ⟨r.val % 2048, Nat.mod_lt _ (by decide)⟩ q) rfl (fun b hb => ?_)).trans ?_
  · match b with
    | ⟨0, _⟩ => exact absurd rfl hb
    | ⟨1, _⟩ => rfl
  · rw [chunk_apply]
    have e : (⟨2048 * (r.val / 2048) + r.val % 2048, by omega⟩ : Fin 16384) = r := Fin.ext (Nat.div_add_mod r.val 2048)
    rw [e]

/-- The reference's last value is A W + b. -/
theorem result_eq (A : FVec Ideal S16384x16384 .f32) (W : FVec Ideal S16384x64 .f32) (b : FVec Ideal S64 .f32) :
    val_main_v19 (F := Ideal) A W b = Cert.Spec.affine A W b := by
  funext i
  obtain ⟨r, q, rfl⟩ : ∃ (r : Fin 16384) (q : Fin 64), i = ix2 r q := ⟨i 0, i 1, eq_ix2 i⟩
  rw [val_main_v19_apply, joined_apply, val_main_v18_apply, val_main_v17_apply, Cert.Spec.affine_apply, Ideal.addf_def]
  refine congrArg (_ + b ·) (funext fun a => Fin.ext ?_)
  match a with
  | ⟨0, _⟩ => rfl

end Cert.ReferenceIdeal.RefEntry

end
-- ==== Proof.lean ====
/-
  The certificate of the kernel against its reference.

  Both programs compute, over the extended reals, the matrix product A W with the vector b added to every row
  (Proof/Spec.lean).  The kernel does it 256 rows at a time over a grid of 64 points, with W and b handed to it in a
  narrower number format and as one row (Proof/BodyEntry.lean, Proof/KernelValue.lean); the reference does it 2048
  rows at a time and joins the eight products (Proof/RefEntry.lean).  Neither the cut of the rows nor the number
  format changes an entry, and no law used needs a finite operand: the precondition is never opened.  The three
  frames are the generated ones, and the idealized kernel is the kernel's own text, so there is nothing to preserve.
-/
import proofs.«102418_g49873160241781_cont_8to1c4_356_26_alg».proof.Defs
import proofs.«102418_g49873160241781_cont_8to1c4_356_26_alg».proof.Proof.Gen.Kernel
import proofs.«102418_g49873160241781_cont_8to1c4_356_26_alg».proof.Proof.Gen.Kernel.Skeleton
import proofs.«102418_g49873160241781_cont_8to1c4_356_26_alg».proof.Proof.Gen.Kernel.Launch
import proofs.«102418_g49873160241781_cont_8to1c4_356_26_alg».proof.Proof.Gen.Kernel.Points
import proofs.«102418_g49873160241781_cont_8to1c4_356_26_alg».proof.Proof.Gen.Kernel.Frame
import proofs.«102418_g49873160241781_cont_8to1c4_356_26_alg».proof.Proof.Gen.KernelIdeal
import proofs.«102418_g49873160241781_cont_8to1c4_356_26_alg».proof.Proof.Gen.KernelIdeal.Skeleton
import proofs.«102418_g49873160241781_cont_8to1c4_356_26_alg».proof.Proof.Gen.KernelIdeal.Launch
import proofs.«102418_g49873160241781_cont_8to1c4_356_26_alg».proof.Proof.Gen.KernelIdeal.Points
import proofs.«102418_g49873160241781_cont_8to1c4_356_26_alg».proof.Proof.Gen.KernelIdeal.Frame
import proofs.«102418_g49873160241781_cont_8to1c4_356_26_alg».proof.Proof.Gen.ReferenceIdeal
import proofs.«102418_g49873160241781_cont_8to1c4_356_26_alg».proof.Proof.Gen.Pre_finite_inputs
import proofs.«102418_g49873160241781_cont_8to1c4_356_26_alg».proof.Proof.Gen.KernelIdeal.Value
import proofs.«102418_g49873160241781_cont_8to1c4_356_26_alg».proof.Proof.Gen.ReferenceIdeal.Run
import proofs.«102418_g49873160241781_cont_8to1c4_356_26_alg».proof.Proof.Gen.ReferenceIdeal.Read
import proofs.«102418_g49873160241781_cont_8to1c4_356_26_alg».proof.Proof.KernelValue
import proofs.«102418_g49873160241781_cont_8to1c4_356_26_alg».proof.Proof.RefEntry
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at A W + b. -/
theorem algebraic : Cert.algebraic_KernelIdeal_ReferenceIdeal := by
  intro m ρ m' ρ' _ hagree
  refine ⟨fun c => Cert.Spec.affine (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefEntry.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
